-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S50000x128 : Shape := ⟨2, ![50000, 128]⟩
abbrev S800000 : Shape := ⟨1, ![800000]⟩
abbrev S256x128 : Shape := ⟨2, ![256, 128]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S800000x128 .f32) (main_arg1 : FVec F S50000x128 .f32) (main_arg2 : IVec S800000 32) (main_arg3 : FVec F S256x128 .f32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S800000x128 : Shape := ⟨2, ![800000, 128]⟩
abbrev S50000x128 : Shape := ⟨2, ![50000, 128]⟩
abbrev S800000 : Shape := ⟨1, ![800000]⟩
abbrev S256x128 : Shape := ⟨2, ![256, 128]⟩
abbrev S1x800000 : Shape := ⟨2, ![1, 800000]⟩
abbrev S1280x128 : Shape := ⟨2, ![1280, 128]⟩
abbrev S1x1280 : Shape := ⟨2, ![1, 1280]⟩
abbrev S1000x1280 : Shape := ⟨2, ![1000, 1280]⟩
abbrev S1000x128 : Shape := ⟨2, ![1000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x256 : Shape := ⟨2, ![5000, 256]⟩

abbrev nBuf : Space → Nat
  | .hbm => 21
  | .vmem => 14
  | .smem => 0
  | _ => 0

abbrev bufTy : (tb : Table) → Fin (tcTables nBuf tb) → BufTy
  | .hbm, ⟨0, _⟩ => ⟨S800000x128, .f32⟩
  | .hbm, ⟨1, _⟩ => ⟨S50000x128, .f32⟩
  | .hbm, ⟨2, _⟩ => ⟨S800000, .i32⟩
  | .hbm, ⟨3, _⟩ => ⟨S256x128, .f32⟩
  | .hbm, ⟨4, _⟩ => ⟨S1x800000, .i32⟩
  | .hbm, ⟨5, _⟩ => ⟨S50000x128, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x128, .f32⟩
  | .hbm, ⟨20, _⟩ => ⟨S50000x128, .f32⟩
  | .local _ .vmem, ⟨0, _⟩ => ⟨S1280x128, .f32⟩
  | .local _ .vmem, ⟨1, _⟩ => ⟨S1280x128, .f32⟩
  | .local _ .vmem, ⟨2, _⟩ => ⟨S1x1280, .i32⟩
  | .local _ .vmem, ⟨3, _⟩ => ⟨S1x1280, .i32⟩
  | .local _ .vmem, ⟨4, _⟩ => ⟨S50000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S256x128, .f32⟩
  | .local _ .vmem, ⟨12, _⟩ => ⟨S5000x128, .f32⟩
  | .local _ .vmem, ⟨13, _⟩ => ⟨S5000x128, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![625], ![false]⟩

@[reducible] def k0_t1_loop : Scf.Loop 32 :=
  let c0_i32_4 : BitVec 32 := 0#32
  let c50_i32 : BitVec 32 := 50#32
  let v7 : BitVec 32 := Scalar.addi c0_i32_4 c50_i32
  let c1_i32 : BitVec 32 := 1#32
  ⟨c0_i32_4, v7, c1_i32⟩
def k0_mult1 (k0_t1 : Fin k0_t1_loop.trips) : BitVec 32 :=
  let c0_i32_4 : BitVec 32 := 0#32
  let c1_i32 : BitVec 32 := 1#32
  let arg4 : BitVec 32 := Scf.iv c0_i32_4 c1_i32 k0_t1
  let c1000_i32 : BitVec 32 := 1000#32
  let v8 : BitVec 32 := Scalar.muli arg4 c1000_i32
  v8
def k0_off1 (k0_t1 : Fin k0_t1_loop.trips) : Fin 2 → Nat :=
  let c0_i32_4 : BitVec 32 := 0#32
  let c1_i32 : BitVec 32 := 1#32
  let arg4 : BitVec 32 := Scf.iv c0_i32_4 c1_i32 k0_t1
  let c1000_i32 : BitVec 32 := 1000#32
  let v8 : BitVec 32 := Scalar.muli arg4 c1000_i32
  let v9 : BitVec 32 := v8
  let v19 : Index := Scalar.indexCast v9
  let c0_6 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1280 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S800000_S1x800000 : S800000.ShapeCasts S1x800000
  inb_S50000x128_S50000x128_0_0 : ∀ a, (![0, 0] : Fin 2 → Nat) a + S50000x128.size a ≤ S50000x128.size a
  h_S50000x128 : 0 < S50000x128.numel
  inb_S1280x128_S1280x128_0_0 : ∀ a, (![0, 0] : Fin 2 → Nat) a + S1280x128.size a ≤ S1280x128.size a
  h_S1280x128 : 0 < S1280x128.numel
  bitsLt_bf16_f32 : FTy.bits .bf16 < FTy.bits .f32
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  iota_S1000x1280_d0_w32 : S1000x1280.Iotas .tc 32 [0]
  broadcasts_S1x1280_S1000x1280 : S1x1280.Broadcasts S1000x1280
  natLt_1_32 : 1 < 32
  h_S1000x128 : 0 < S1000x128.numel
  shapeCasts_S1000x128_S1000x128 : S1000x128.ShapeCasts S1000x128
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  dot_S1000x1280_S1280x128_S1000x128_1_0_0_1_n_n_wf : DotDims.WF S1000x1280 S1280x128 S1000x128 [1] [0] [0] [1] [] []
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  hrank0 : 0 < grid0.rank
  k0_t1_ok : k0_t1_loop.OK
  k0_mult1_dvd : ∀ k0_t1 : Fin k0_t1_loop.trips, 1000 ∣ (k0_mult1 k0_t1).toNat
  k0_off1_inb : ∀ k0_t1 : Fin k0_t1_loop.trips, ∀ a, (k0_off1 k0_t1) a + S1000x128.size a ≤ S50000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x128.size a ≤ S800000x128.size a
  hwx0_0 : ∀ i : grid0.Coords, EltTy.bits .f32 = 32 ∨ (Rect.block (s := S800000x128) S1280x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x800000.size a
  hwx0_1 : ∀ i : grid0.Coords, EltTy.bits .i32 = 32 ∨ (Rect.block (s := S1x800000) S1x1280.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50000x128.size a ≤ S50000x128.size a
  hwx0_2 : ∀ i : grid0.Coords, EltTy.bits .f32 = 32 ∨ (Rect.block (s := S50000x128) S50000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S1000x1280_S1280x128_S1000x128_1_0_0_1_n_n : DotDims S1000x1280 S1280x128 S1000x128 where
  lhsContracting := [1]
  rhsContracting := [0]
  lhsNonContracting := [0]
  rhsNonContracting := [1]
  lhsBatch := []
  rhsBatch := []
  wf := dot_S1000x1280_S1280x128_S1000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S1280x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S50000x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S800000x128 : Shape := ⟨2, ![800000, 128]⟩
abbrev S50000x128 : Shape := ⟨2, ![50000, 128]⟩
abbrev S800000 : Shape := ⟨1, ![800000]⟩
abbrev S256x128 : Shape := ⟨2, ![256, 128]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S50000x256 : Shape := ⟨2, ![50000, 256]⟩

abbrev nBuf : Space → Nat
  | .hbm => 22
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S50000x128, .f32⟩
  | .hbm, ⟨2, _⟩ => ⟨S800000, .i32⟩
  | .hbm, ⟨3, _⟩ => ⟨S256x128, .f32⟩
  | .hbm, ⟨4, _⟩ => ⟨S_, .f32⟩
  | .hbm, ⟨5, _⟩ => ⟨S50000x128, .f32⟩
  | .hbm, ⟨6, _⟩ => ⟨S800000x1, .i32⟩
  | .hbm, ⟨7, _⟩ => ⟨S50000x128, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x128, .f32⟩
  | .hbm, ⟨19, _⟩ => ⟨S50000x128, .f32⟩
  | .hbm, ⟨20, _⟩ => ⟨S50000x256, .f32⟩
  | .hbm, ⟨21, _⟩ => ⟨S50000x128, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.ScatterTrip.lean ====
/-
  One trip of the scatter kernel's inner loop, read at an entry.

  The kernel adds the edge features into their receiver nodes by a one-hot matrix product. For a block of 1280 edges
  (features `x : [1280, 128]`, receiver ids `r : [1, 1280]`) and the chunk of 1000 node rows starting at `1000 k`, trip
  `k` forms the matrix `hot (n, e) = 1` if `n = r e` and `0` otherwise, over the rows `n = 1000 k + j`, and stores
  `old + hot · x` on those rows. So entry `(j, d)` of the stored value is the old entry plus
  `∑ e, hot (1000 k + j, e) · x (e, d)` — the features of the block's edges received by node `1000 k + j`.
-/
import proofs.«156975_j29119878266987_1_alg».proof.Proof.Gen.KernelIdeal.Skeleton
import proofs.«156975_j29119878266987_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Scatter

open Idealize.ShloMosaic Idealize.ShloMosaic.ValueIdx
open Cert.KernelIdeal Cert.KernelIdeal.Gen
open scoped BigOperators

/-- The one-hot entry of node `n` against slot `e` of a block of receiver ids: `1` when the id is `n`, else `0`. -/
def hot (r : Vec Ideal S1x1280 .i32) (n : ℕ) (e : Fin 1280) : EReal :=
  if BitVec.ofNat 32 n = r (ix2 (0 : Fin 1) e) then 1 else 0

/-- What a block of 1280 edges contributes to node `n`, channel `d`: the features of its edges whose receiver is `n`. -/
def part (x : Vec Ideal S1280x128 .f32) (r : Vec Ideal S1x1280 .i32) (n : ℕ) (d : Fin 128) : EReal :=
  ∑ e : Fin 1280, hot r n e * x (ix2 e d)

theorem trips_eq : k0_t1_loop.trips = 50 := by decide

/-- The node id the kernel computes for row `j` of chunk `k`: the word of `1000 k + j` (no wrap-around: it is below 50000). -/
theorem node_id (k j : ℕ) (hk : k < 50) (hj : j < 1000) :
    IntOp.addi (Scalar.muli (Scf.iv 0#32 1#32 k) 1000#32) (BitVec.ofNat 32 j) = BitVec.ofNat 32 (1000 * k + j) := by
  apply BitVec.eq_of_toNat_eq
  simp only [IntOp.addi, Scalar.muli, IntOp.muli, Scf.iv, BitVec.toNat_add, BitVec.toNat_mul, BitVec.toNat_ofNat]
  omega

/-- A comparison bit widened to a word and read as a signed integer is `1` on equality and `0` otherwise. -/
theorem hot_word (a b : BitVec 32) :
    FloatOps.sitofp (F := Ideal) .f32 ((IntOp.cmpi .eq a b).setWidth 32) = if a = b then (1 : EReal) else 0 := by
  by_cases h : a = b
  · subst h
    rw [if_pos rfl]
    show (((BitVec.setWidth 32 (BitVec.ofBool (a == a))).toInt : ℝ) : EReal) = 1
    simp
  · rw [if_neg h]
    show (((BitVec.setWidth 32 (BitVec.ofBool (a == b))).toInt : ℝ) : EReal) = 0
    have : (a == b) = false := by simpa using h
    rw [this]
    simp

theorem dot_l0 (i : S1000x128.Idx) (q : dot_S1000x1280_S1280x128_S1000x128_1_0_0_1_n_n.contr.Idx) :
    (dot_S1000x1280_S1280x128_S1000x128_1_0_0_1_n_n.lhsIdx i q 0).val = (i 0).val := by
  unfold DotDims.lhsIdx
  rw [dif_neg (show ¬(0 : Fin S1000x1280.rank) ∈ dot_S1000x1280_S1280x128_S1000x128_1_0_0_1_n_n.lhsBatch by decide), dif_pos (show (0 : Fin S1000x1280.rank) ∈ dot_S1000x1280_S1280x128_S1000x128_1_0_0_1_n_n.lhsNonContracting by decide)]
  rfl
theorem dot_l1 (i : S1000x128.Idx) (q : dot_S1000x1280_S1280x128_S1000x128_1_0_0_1_n_n.contr.Idx) :
    (dot_S1000x1280_S1280x128_S1000x128_1_0_0_1_n_n.lhsIdx i q 1).val = (q ⟨0, by decide⟩).val :=
  dot_S1000x1280_S1280x128_S1000x128_1_0_0_1_n_n.lhsIdx_val_of_single rfl i q
theorem dot_r0 (i : S1000x128.Idx) (q : dot_S1000x1280_S1280x128_S1000x128_1_0_0_1_n_n.contr.Idx) :
    (dot_S1000x1280_S1280x128_S1000x128_1_0_0_1_n_n.rhsIdx i q 0).val = (q ⟨0, by decide⟩).val :=
  dot_S1000x1280_S1280x128_S1000x128_1_0_0_1_n_n.rhsIdx_val_of_single rfl i q
theorem dot_r1 (i : S1000x128.Idx) (q : dot_S1000x1280_S1280x128_S1000x128_1_0_0_1_n_n.contr.Idx) :
    (dot_S1000x1280_S1280x128_S1000x128_1_0_0_1_n_n.rhsIdx i q 1).val = (i 1).val := by
  unfold DotDims.rhsIdx
  rw [dif_neg (show ¬(1 : Fin S1280x128.rank) ∈ dot_S1000x1280_S1280x128_S1000x128_1_0_0_1_n_n.rhsBatch by decide), dif_pos (show (1 : Fin S1280x128.rank) ∈ dot_S1000x1280_S1280x128_S1000x128_1_0_0_1_n_n.rhsNonContracting by decide)]
  rfl

/-- Entry `(j, d)` of what trip `k` stores: the old entry plus the block's contribution to node `1000 k + j`. -/
theorem pay2_apply (x : Vec Ideal S1280x128 .f32) (r : Vec Ideal S1x1280 .i32) (k : Fin k0_t1_loop.trips)
    (old : Vec Ideal S1000x128 .f32) (j : Fin 1000) (d : Fin 128) :
    k0_pay2 (F := Ideal) x r k old (ix2 j d) = old (ix2 j d) + part x r (1000 * k.val + j.val) d := by
  have hk : k.val < 50 := lt_of_lt_of_eq k.isLt trips_eq
  unfold k0_pay2
  rw [addf_apply, shapeCast_self,
    Cert.LibPlainMatmul.matmul_zero_ix2 dot_S1000x1280_S1280x128_S1000x128_1_0_0_1_n_n none rfl rfl dot_l0 dot_l1 dot_r0 dot_r1]
  unfold part
  refine congrArg _ (Finset.sum_congr rfl fun e _ => ?_)
  rw [truncf_apply, truncf_apply, sitofp_apply, extui_apply]
  refine congrArg (· * x (ix2 e d)) ?_
  have hA : (addi (broadcast S1000x1280 (Scalar.muli (Scf.iv 0#32 1#32 k.val) 1000#32)) (iota Kind.tc S1000x1280 32 [0] iota_S1000x1280_d0_w32)) (ix2 j e)
      = BitVec.ofNat 32 (1000 * k.val + j.val) := by
    show IntOp.addi (Scalar.muli (Scf.iv 0#32 1#32 k.val) 1000#32) (iota Kind.tc S1000x1280 32 [0] iota_S1000x1280_d0_w32 (ix2 j e)) = _
    rw [iota_single_apply]
    exact node_id k.val j.val hk j.isLt
  have hB : (broadcastTo S1000x1280 (shapeCast S1x1280 r shapeCasts_S1x1280_S1x1280) broadcasts_S1x1280_S1000x1280) (ix2 j e) = r (ix2 (0 : Fin 1) e) := by
    rw [shapeCast_self]
    exact broadcastTo_1b_ab_apply r _ j e
  show FloatOps.sitofp (F := Ideal) .f32 ((IntOp.cmpi .eq (addi _ _ (ix2 j e)) (broadcastTo _ _ _ (ix2 j e))).setWidth 32) = hot r (1000 * k.val + j.val) e
  rw [hA, hB, hot_word]
  rfl

end Cert.KernelIdeal.Scatter

end
-- ==== Proof.ScatterLoop.lean ====
/-
  The scatter kernel's inner loop, read at an entry.

  The loop runs over the 50 chunks of 1000 node rows. Trip `k` rewrites rows `[1000 k, 1000 k + 1000)` of the running
  sums, and no other trip touches them, so after `K` trips a row below `1000 K` holds its entry contents plus the
  block's contribution to that node, and a row from `1000 K` on still holds its entry contents. After all 50 trips
  every entry `(n, d)` holds `old (n, d) + ∑ e, hot (n, e) · x (e, d)`.
-/
import proofs.«156975_j29119878266987_1_alg».proof.Proof.Gen.KernelIdeal.Frame
import proofs.«156975_j29119878266987_1_alg».proof.Proof.ScatterTrip
import Idealize.ShloMosaic.Lib.WritesUnit
import Idealize.ShloMosaic.Lib.Pipeline.Value
import Idealize.ShloMosaic.Lib.ValueIdx

set_option maxRecDepth 16384

noncomputable section

namespace Cert.KernelIdeal.Scatter

open Idealize.ShloMosaic Idealize.ShloMosaic.TcCoe Idealize.ShloMosaic.ValueIdx
open Idealize.SL Idealize.SL.Sem
open Cert.KernelIdeal Cert.KernelIdeal.Gen
open scoped BigOperators

section Loop

variable (𝒱 : Variants) (c : Dev nD) (bd : Option 𝒱.V) (i : grid0.Coords)
  (a1 : Memref sig .tc .vmem S1280x128 .f32) (h1 : a1.IsWhole) (a2 : Memref sig .tc .vmem S1x1280 .i32) (h2 : a2.IsWhole)
  (a3 : Memref sig .tc .vmem S50000x128 .f32) (h3 : a3.IsWhole) (x : Vec Ideal S1280x128 .f32) (r : Vec Ideal S1x1280 .i32)

/-- What one trip writes: the one store of rows `[1000 k, 1000 k + 1000)`, its value computed from the same rows as the
    trip finds them. -/
theorem tripL_eq (k : Fin k0_t1_loop.trips) (f : BufTy.Contents (Elt Ideal) a3.view.ty) :
    tripL_k0_t1 (F := Ideal) 𝒱 c bd i a1 h1 a2 h2 a3 h3 x r k f
      = [⟨Rect.unit (s := S50000x128) (k0_off1 k) S1000x128.size (k0_off1_inb k),
          k0_pay2 x r k (View.readAt (Elt Ideal) a3.view (Rect.unit (s := S50000x128) (k0_off1 k) S1000x128.size (k0_off1_inb k)).toLoadRect f)⟩] := by
  unfold tripL_k0_t1 trip_k0_t1
  rfl

/-- After `K` trips: a row below `1000 K` has received the block's contribution, a later row is as at entry. -/
theorem read_pb (G : BufTy.Contents (Elt Ideal) a3.view.ty) : ∀ (K : ℕ) (hK : K ≤ 50) (n : Fin 50000) (d : Fin 128),
    a3.view.read (Elt Ideal) (a3.view.writes (Elt Ideal) G (pb_k0_t1 (F := Ideal) 𝒱 c bd i a1 h1 a2 h2 a3 h3 x r G K)) (ix2 n d)
      = if n.val < 1000 * K then a3.view.read (Elt Ideal) G (ix2 n d) + part x r n.val d
        else a3.view.read (Elt Ideal) G (ix2 n d)
  | 0, _, n, d => by
    rw [show pb_k0_t1 (F := Ideal) 𝒱 c bd i a1 h1 a2 h2 a3 h3 x r G 0 = [] from rfl, View.writes_nil, if_neg (by omega)]
  | K + 1, hK, n, d => by
    have hKt : K < k0_t1_loop.trips := by rw [trips_eq]; omega
    have ih := read_pb G K (by omega) n d
    have hs := pb_k0_t1_succ (F := Ideal) 𝒱 c bd i a1 h1 a2 h2 a3 h3 x r G ⟨K, hKt⟩
    rw [show (⟨K, hKt⟩ : Fin k0_t1_loop.trips).val + 1 = K + 1 from rfl] at hs
    rw [hs, tripL_eq, List.singleton_append]
    by_cases hn : 1000 * K ≤ n.val ∧ n.val < 1000 * K + 1000
    · rw [View.read_writes_cons_rows_of_mem a3.view G (k0_off1_inb ⟨K, hKt⟩) _ _ (ix2 n d)
        (ix2 (⟨n.val - 1000 * K, by omega⟩ : Fin 1000) d) (k0_off1_eq ⟨K, hKt⟩)
        (by show n.val = 1000 * K + (n.val - 1000 * K); omega) rfl]
      rw [pay2_apply]
      have e : 1000 * (⟨K, hKt⟩ : Fin k0_t1_loop.trips).val + (⟨n.val - 1000 * K, by omega⟩ : Fin 1000).val = n.val := by
        show 1000 * K + (n.val - 1000 * K) = n.val
        omega
      rw [e, if_pos (by omega)]
      refine congrArg (· + part x r n.val d) ?_
      refine Eq.trans ?_ (ih.trans (if_neg (by omega)))
      show a3.view.read (Elt Ideal) _ ((Rect.unit (s := S50000x128) (k0_off1 ⟨K, hKt⟩) S1000x128.size (k0_off1_inb ⟨K, hKt⟩)).idx (ix2 (⟨n.val - 1000 * K, by omega⟩ : Fin 1000) d)) = _
      refine congrArg _ (funext fun a => Fin.ext ?_)
      have h0 := congrFun (k0_off1_eq ⟨K, hKt⟩) 0
      have h1' := congrFun (k0_off1_eq ⟨K, hKt⟩) 1
      match a with
      | ⟨0, _⟩ =>
        show k0_off1 ⟨K, hKt⟩ 0 + 1 * (n.val - 1000 * K) = n.val
        rw [h0]
        show 1000 * K + 1 * (n.val - 1000 * K) = n.val
        omega
      | ⟨1, _⟩ =>
        show k0_off1 ⟨K, hKt⟩ 1 + 1 * d.val = d.val
        rw [h1']
        show 0 + 1 * d.val = d.val
        omega
    · rw [View.read_writes_cons_rows_of_not_mem a3.view G (k0_off1_inb ⟨K, hKt⟩) _ _ (ix2 n d) (k0_off1_eq ⟨K, hKt⟩) rfl
        (by show n.val < 1000 * K ∨ 1000 * K + 1000 ≤ n.val; omega), ih]
      by_cases hlt : n.val < 1000 * K
      · rw [if_pos hlt, if_pos (by omega)]
      · rw [if_neg hlt, if_neg (by omega)]

end Loop

end Cert.KernelIdeal.Scatter

end
-- ==== Proof.ScatterCases.lean ====
/-
  The scatter kernel's body, case by case, read at an entry.

  At the first grid point the body clears the running sums and then runs the loop: it leaves `0 + part`. At every later
  point it runs the loop over the sums the point before left: it leaves `old + part`. Here `part (n, d)` is the
  contribution of the point's block of 1280 edges to node `n`, channel `d`.
-/
import proofs.«156975_j29119878266987_1_alg».proof.Proof.Gen.KernelIdeal.Frame
import proofs.«156975_j29119878266987_1_alg».proof.Proof.ScatterLoop
import Idealize.ShloMosaic.Lib.Pipeline.Value
import Idealize.ShloMosaic.Lib.ValueIdx
import Idealize.ShloMosaic.Lib.Tactic

set_option maxRecDepth 16384

noncomputable section

namespace Cert.KernelIdeal.Scatter

open Idealize.ShloMosaic Idealize.ShloMosaic.TcCoe Idealize.ShloMosaic.Tactic Idealize.ShloMosaic.ValueIdx
open Idealize.SL Idealize.SL.Sem
open Cert.KernelIdeal Cert.KernelIdeal.Gen
open scoped BigOperators

theorem hz : (![0, 0] : Fin 2 → Nat) = fun _ => 0 := funext fun a => by fin_cases a <;> rfl

theorem loop_trips : Scf.trips (0#32) (Scalar.addi 0#32 50#32) 1#32 = 50 := by decide

section Cases

variable (c : Dev nD) (i : grid0.Coords)
  (a1 : Memref sig .tc .vmem S1280x128 .f32) (h1 : a1.IsWhole) (a2 : Memref sig .tc .vmem S1x1280 .i32) (h2 : a2.IsWhole)
  (a3 : Memref sig .tc .vmem S50000x128 .f32) (h3 : a3.IsWhole) (x : Vec Ideal S1280x128 .f32) (r : Vec Ideal S1x1280 .i32)

/-- A later point: the loop over the sums `old` the point before left. -/
theorem out_B (hc : ¬cond0_0 i) (old : Vec Ideal S50000x128 .f32) :
    out0_B_2 (F := Ideal) c i a1 h1 a2 h2 a3 h3 hc x r old = fun y => old y + part x r (y 0).val (y 1) := by
  unfold out0_B_2
  rw [View.read_writes_eq_canon _ _ _ (cover0_B_2 c i a1 h1 a2 h2 a3 h3 hc x r old),
    ← View.read_writes_eq_canon a3.view (h3.unread old) _ (cover0_B_2 c i a1 h1 a2 h2 a3 h3 hc x r old)]
  unfold kernelRun0_B
  dsimp only
  simp only [View.readAt_eq_ld, h1.read_unread, h2.read_unread, View.ld_unit_zero (S := S1280x128) hz,
    View.ld_unit_zero (S := S1x1280) hz]
  funext y
  obtain ⟨n, d, rfl⟩ : ∃ (n : Fin 50000) (d : Fin 128), y = ix2 n d := ⟨y 0, y 1, eq_ix2 y⟩
  rw [loop_trips, read_pb Variants.none c none i a1 h1 a2 h2 a3 h3 x r (h3.unread old) 50 (le_refl _) n d,
    if_pos (by have := n.isLt; omega), h3.read_unread]

/-- The first point: the sums cleared, then the loop. -/
theorem out_A (hc : cond0_0 i) :
    out0_A_2 (F := Ideal) c i a1 h1 a2 h2 a3 h3 hc x r = fun y => 0 + part x r (y 0).val (y 1) := by
  unfold out0_A_2
  rw [View.read_writes_eq_canon _ _ _ (cover0_A_2 c i a1 h1 a2 h2 a3 h3 hc x r),
    ← View.read_writes_eq_canon a3.view a3.view.junk _ (cover0_A_2 c i a1 h1 a2 h2 a3 h3 hc x r)]
  unfold kernelRun0_A
  dsimp only
  sl_unfold_words
  simp only [View.readAt_eq_ld, h1.read_unread, h2.read_unread, View.ld_unit_zero (S := S1280x128) hz,
    View.ld_unit_zero (S := S1x1280) hz]
  rw [View.writes_append, loop_trips]
  funext y
  obtain ⟨n, d, rfl⟩ : ∃ (n : Fin 50000) (d : Fin 128), y = ix2 n d := ⟨y 0, y 1, eq_ix2 y⟩
  rw [read_pb Variants.none c none i a1 h1 a2 h2 a3 h3 x r _ 50 (le_refl _) n d, if_pos (by have := n.isLt; omega)]
  refine congrArg (· + part x r n.val d) ?_
  rw [View.read_writes_cons_rows_of_mem a3.view a3.view.junk inb_S50000x128_S50000x128_0_0 _ [] (ix2 n d) (ix2 n d) rfl
    (by show n.val = 0 + n.val; omega) rfl]
  show Ideal.ofBits .f32 0x00000000#32 = 0
  exact Ideal.ofBits_zero_f32

end Cases

end Cert.KernelIdeal.Scatter

end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.ScatterArray.lean ====
/-
  The scatter kernel's result array: every node's segment sum.

  The grid has 625 points; point `t` stages edges `[1280 t, 1280 t + 1280)` and their receiver ids, and the output
  block is the whole `[50000, 128]` array at every point, written back once, after the last. The body's two cases give
  the running sums `0 + B₀`, then `+ B_t`, where `B_t (n, d)` is block `t`'s contribution to node `n`; summed block by
  block in order from zero, after the last block that is the sum over all 800000 edges of
  `[receiver e = n] · edges (e, d)`.
-/
import proofs.«156975_j29119878266987_1_alg».proof.Proof.Gen.KernelIdeal.Frame
import proofs.«156975_j29119878266987_1_alg».proof.Proof.ScatterCases
import proofs.«156975_j29119878266987_1_alg».proof.Proof.LibBlockSums
import Idealize.ShloMosaic.Lib.Pipeline.Value
import Idealize.ShloMosaic.Lib.ValueIdx

set_option maxRecDepth 16384

noncomputable section

namespace Cert.KernelIdeal.Scatter

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

/-- One edge's term in node `n`'s sum at channel `d`: its features if its receiver is `n`, else nothing. -/
def fam (E : S800000x128.Idx → EReal) (R : S1x800000.Idx → BitVec 32) (n : ℕ) (d : Fin 128) : Fin (625 * 1280) → EReal :=
  fun e => (if BitVec.ofNat 32 n = R (ix2 (0 : Fin 1) (⟨e.val, by have := e.isLt; omega⟩ : Fin 800000)) then 1 else 0)
    * E (ix2 (⟨e.val, by have := e.isLt; omega⟩ : Fin 800000) d)

/-- The segment sums: entry `(n, d)` is the sum of the terms of all edges. -/
def segSum (E : S800000x128.Idx → EReal) (R : S1x800000.Idx → BitVec 32) : S50000x128.Idx → EReal :=
  fun y => ∑ e : Fin (625 * 1280), fam E R (y 0).val (y 1) e

section Array

variable (V : (c : Dev nD) → (b : Ref sig .tc) → Buf (Elt Ideal) ((c : Thread nD τ).loc b)) (c : Dev nD)

/-- The two arrays the first pallas_call finds: the edge features, and the receiver ids laid out as one row. -/
abbrev edgesArr : S800000x128.Idx → EReal := V c (Pipeline.arrRef spec0 0)
abbrev recvRow : S1x800000.Idx → BitVec 32 := V c (Pipeline.arrRef spec0 1)

/-- The printed index maps, decided once over the grid: point `t` stages row block `t` of the edges and column block
    `t` of the receiver row; the output block is the whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

theorem edges_block (t : Fin cfg0.N) (e : Fin 1280) (d : Fin 128) (hb : e.val + 1280 * t.val < 800000) :
    (iblk0 V c 0 t : Vec Ideal S1280x128 .f32) (ix2 e d) = edgesArr V c (ix2 (⟨e.val + 1280 * t.val, hb⟩ : Fin 800000) d) := by
  obtain ⟨e0, e1, -, -, -, -⟩ := idx_facts0 t
  show V c (Pipeline.arrRef spec0 0) (((cfg0.win 0).blk t).view.emb (ix2 e d)) = _
  refine congrArg _ (funext fun a => Fin.ext ?_)
  match a with
  | ⟨0, _⟩ => show win0_0.index t (0 : Fin 2) * 1280 + 1 * e.val = e.val + 1280 * t.val; rw [e0]; omega
  | ⟨1, _⟩ => show win0_0.index t (1 : Fin 2) * 128 + 1 * d.val = d.val; rw [e1]; omega

theorem recv_block (t : Fin cfg0.N) (e : Fin 1280) (hb : e.val + 1280 * t.val < 800000) :
    (iblk0 V c 1 t : Vec Ideal S1x1280 .i32) (ix2 (0 : Fin 1) e) = recvRow V c (ix2 (0 : Fin 1) (⟨e.val + 1280 * t.val, hb⟩ : Fin 800000)) := by
  obtain ⟨-, -, e2, e3, -, -⟩ := idx_facts0 t
  show V c (Pipeline.arrRef spec0 1) (((cfg0.win 1).blk t).view.emb (ix2 (0 : Fin 1) e)) = _
  refine congrArg _ (funext fun a => Fin.ext ?_)
  match a with
  | ⟨0, _⟩ => show win0_1.index t (0 : Fin 2) * 1 + 1 * 0 = 0; rw [e2]
  | ⟨1, _⟩ => show win0_1.index t (1 : Fin 2) * 1280 + 1 * e.val = e.val + 1280 * t.val; rw [e3]; omega

/-- Block `t`'s contribution to node `n` is block `t` of the edges' terms. -/
theorem part_block (t : Fin cfg0.N) (n : ℕ) (d : Fin 128) :
    part (iblk0 V c 0 t) (iblk0 V c 1 t) n d = BlockSums.blockSum 1280 (fam (edgesArr V c) (recvRow V c) n d) t.val := by
  have hN : cfg0.N = 625 := N_0
  have ht : t.val < 625 := hN ▸ t.isLt
  rw [BlockSums.blockSum_eq 1280 _ t.val (by omega)]
  unfold part hot fam
  refine Finset.sum_congr rfl fun e _ => ?_
  have hb : e.val + 1280 * t.val < 800000 := by have := e.isLt; omega
  rw [edges_block V c t e d hb, recv_block V c t e hb]

/-- The running sums after point `t`: the blocks `0, …, t` added in order from zero. -/
theorem outsAt_eq : ∀ (t : ℕ) (h : t < cfg0.N) (n : Fin 50000) (d : Fin 128),
    outsAt0 (F := Ideal) V c t h (ix2 n d) = BlockSums.runSum 1280 (fam (edgesArr V c) (recvRow V c) n.val d) t
  | 0, h, n, d => by
    rw [BlockSums.runSum_zero, ← part_block V c ⟨0, h⟩]
    exact (congrFun ((outsAt0_A V c ⟨0, h⟩ rfl).trans (out_A ..)) (ix2 n d))
  | t + 1, h, n, d => by
    have hN : cfg0.N = 625 := N_0
    have hB : ¬(⟨t + 1, h⟩ : Fin cfg0.N).val % 625 = 0 := by dsimp only; omega
    rw [BlockSums.runSum_succ, ← part_block V c ⟨t + 1, h⟩, ← outsAt_eq t (Nat.lt_of_succ_lt h) n d]
    exact (congrFun ((outsAt0_B V c ⟨t + 1, h⟩ hB).trans (out_B ..)) (ix2 n d))

/-- After the last point the running sums are the segment sums. -/
theorem outsAt_last (h : 624 < cfg0.N) : outsAt0 (F := Ideal) V c 624 h = segSum (edgesArr V c) (recvRow V c) := by
  funext y
  obtain ⟨n, d, rfl⟩ : ∃ (n : Fin 50000) (d : Fin 128), y = ix2 n d := ⟨y 0, y 1, eq_ix2 y⟩
  rw [outsAt_eq V c 624 h n d]
  exact BlockSums.runSum_last 625 1280 (by decide) _

/-- The output window's extent, decided once over the grid: the whole array at every point. -/
theorem xsize_facts0 : ∀ t : Fin cfg0.N, win0_2.xsize (grid0.coords t) (0 : Fin 2) = 50000 ∧ win0_2.xsize (grid0.coords t) (1 : Fin 2) = 128 :=
  (by decide +kernel : ∀ t : Fin grid0.N, _)

/-- The last grid point. -/
def tLast : Fin cfg0.N := ⟨624, by rw [show cfg0.N = 625 from N_0]; decide⟩

/-- The one write-back, after the last point, writes the segment sums: the output block read through zero offsets is
    the whole array. -/
theorem flushed_eq (t : Fin cfg0.N) (hf : (cfg0.win 2).flush t = true) :
    (dat0 (F := Ideal) V c).flushed 2 t = ((cfg0.win 2).blk t).view.read (Elt Ideal) (segSum (edgesArr V c) (recvRow V c)) := by
  have hN : cfg0.N = 625 := N_0
  have h624 : t.val = 624 := by have := (flush0_2 t).mp hf; have := t.isLt; omega
  obtain ⟨-, -, -, -, e4, e5⟩ := idx_facts0 t
  show (cfg0.win 2).cut (grid0.coords t) ((dat0 V c).after 2 t) = _
  rw [after0_2]
  have hlast : outsAt0 (F := Ideal) V c t.val t.isLt = segSum (edgesArr V c) (recvRow V c) := by
    obtain ⟨tv, htv⟩ := t
    dsimp only at h624
    subst h624
    exact outsAt_last V c htv
  rw [hlast]
  have hz' : (fun a => win0_2.index t a * main_v1.ty.shape.size a) = fun _ => 0 := funext fun a => by
    match a with
    | ⟨0, _⟩ => show win0_2.index t (0 : Fin 2) * _ = 0; rw [e4, Nat.zero_mul]
    | ⟨1, _⟩ => show win0_2.index t (1 : Fin 2) * _ = 0; rw [e5, Nat.zero_mul]
  exact (Memref.read_access_unit_zero (Elt Ideal) main_v1 hz' (fun a => by rw [congrFun hz' a]; simp) (segSum (edgesArr V c) (recvRow V c))).symm

/-- So the first pallas_call's result array ends holding the segment sums of the arrays it found. -/
theorem final_seg : (dat0 (F := Ideal) V c).arrAt 2 cfg0.N = segSum (edgesArr V c) (recvRow V c) :=
  (dat0 V c).arrAt_eq_of_cover 2 (segSum (edgesArr V c) (recvRow V c)) (flushed_eq V c) fun i =>
    ⟨tLast, (flush0_2 tLast).mpr rfl, by
      show i ∈ ((View.whole main_v1).slice (win0_2.rect tLast)).set
      rw [View.set_slice_whole, Rect.mem_set_unit]
      intro a
      obtain ⟨-, -, -, -, e4, e5⟩ := idx_facts0 tLast
      obtain ⟨s0, s1⟩ := xsize_facts0 tLast
      have h0 : (i 0 : Nat) < 50000 := (i 0).isLt
      have h1 : (i 1 : Nat) < 128 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [e4, s0, Nat.zero_mul]; omega
      | ⟨1, _⟩ =>
        show win0_2.index tLast 1 * win0_2.size 1 ≤ (i 1 : Nat) ∧ (i 1 : Nat) < win0_2.index tLast 1 * win0_2.size 1 + win0_2.xsize (grid0.coords tLast) 1
        rw [e5, s1, Nat.zero_mul]; omega⟩

end Array

end Cert.KernelIdeal.Scatter

end
-- ==== Proof.SegmentMean.lean ====
/-
  The segment mean, projected — what both programs compute, entry by entry, over the extended reals.

  For node n and output channel d the result is  ∑_{k < 256} [agg | nodes](n, k) · W(k, d),  where the matrix
  [agg | nodes] joins, along the columns, the per-node mean of the received edge features (agg, 128 columns)
  and the node's own features (128 columns).
-/
import Idealize.ShloMosaic.PureOps.Ideal
import Idealize.ShloMosaic.Lib.ValueIdx

noncomputable section

namespace Cert.SegmentMean

open Idealize.ShloMosaic Idealize.ShloMosaic.ValueIdx
open scoped BigOperators

/-- Row `n` of the matrix `[agg | nodes]` (two [50000, 128] arrays joined along the columns) at column `k < 256`:
    a column below 128 reads `agg`, a column from 128 on reads `nodes` at the column less 128. -/
def joined (agg nd : (⟨2, ![50000, 128]⟩ : Shape).Idx → EReal) (n : Fin 50000) (k : Fin 256) : EReal :=
  if h : k.val < 128 then agg (ix2 n ⟨k.val, h⟩) else nd (ix2 n ⟨k.val - 128, by omega⟩)

/-- The projection `[agg | nodes] · W`, entry by entry: the sum over the 256 joined columns. -/
def project (agg nd : (⟨2, ![50000, 128]⟩ : Shape).Idx → EReal) (w : (⟨2, ![256, 128]⟩ : Shape).Idx → EReal) :
    (⟨2, ![50000, 128]⟩ : Shape).Idx → EReal :=
  fun i => ∑ k : Fin 256, joined agg nd (i 0) k * w (ix2 k (i 1))

end Cert.SegmentMean

end
-- ==== Proof.FinalizeBlocks.lean ====
/-
  The second grid kernel's result array, as one function of the arrays it finds.

  The kernel runs over 10 row blocks of 5000 rows. At block t it stages rows 5000 t … 5000 t + 4999 of three
  [50000, 128] arrays (the segment sums S, the inverse counts C broadcast along the columns, the node features X)
  and the whole [256, 128] matrix W, and writes rows 5000 t … 5000 t + 4999 of the result: entry (r, d) of the
  block is  ∑_{k < 256} [S·C | X](r, k) · W(k, d),  the joined row [S·C | X] holding the products S(r, k) · C(r, k)
  in columns k < 128 and X(r, k − 128) in columns k ≥ 128. The ten blocks tile the rows, so the array after the
  last block is that sum at every (n, d): the projection of the joined matrix [S·C | X] by W.
-/
import proofs.«156975_j29119878266987_1_alg».proof.Proof.Gen.KernelIdeal.Frame
import proofs.«156975_j29119878266987_1_alg».proof.Proof.SegmentMean
import proofs.«156975_j29119878266987_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Finalize

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## One block: the body's arithmetic at an entry -/

/-- Row `r` of a block's joined matrix [x0 · x1 | x2] at column `k < 256`: below 128 the product of the first two
    blocks at (r, k), from 128 on the third block at (r, k − 128). -/
def blockJoined (x0 x1 x2 : Vec Ideal S5000x128 .f32) (r : Fin 5000) (k : Fin 256) : EReal :=
  if h : k.val < 128 then x0 (ix2 r ⟨k.val, h⟩) * x1 (ix2 r ⟨k.val, h⟩) else x2 (ix2 r ⟨k.val - 128, by omega⟩)

/-- Two [5000, 128] blocks joined along the columns, read at (r, k): the first at column k when k < 128, the second
    at column k − 128 otherwise. -/
theorem concat_cols_apply (a b : FVec Ideal S5000x128 .f32) (r : Fin 5000) (k : Fin 256) :
    concatenate S5000x256 1 [⟨S5000x128, a⟩, ⟨S5000x128, b⟩] concatenates_S5000x128_S5000x128_S5000x256_d1 (ix2 r k)
      = if h : k.val < 128 then a (ix2 r ⟨k.val, h⟩) else b (ix2 r ⟨k.val - 128, by omega⟩) := by
  by_cases h : k.val < 128
  · rw [dif_pos h]
    refine concatenate_pair_apply_left (1 : Fin S5000x256.rank) a b _ (ix2 r k) rfl (ix2 r ⟨k.val, h⟩) ?_
    intro c
    match c with
    | ⟨0, _⟩ => rfl
    | ⟨1, _⟩ => rfl
  · rw [dif_neg h]
    refine concatenate_pair_apply_right (1 : Fin S5000x256.rank) a b _ (ix2 r k) rfl rfl (ix2 r ⟨k.val - 128, by omega⟩) ?_ ?_
    · intro c hc
      match c, hc with
      | ⟨0, _⟩, _ => rfl
      | ⟨1, _⟩, hc => exact absurd rfl hc
    · show (k.val - 128) + 128 = k.val
      omega

/-- The product's left operand index at output (r, d) and contraction coordinate q is (r, q). -/
theorem lhs_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand index is (q, d). -/
theorem rhs_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- THE BODY AT AN ENTRY: the block's result at (r, d) is the joined row r of [x0 · x1 | x2] times column d of x3
    (the matrix product accumulates into zero; the narrowing of the operands is the identity on the extended reals,
    and so are the two reshapes to the same shape). -/
theorem payload_apply (x0 x1 x2 : Vec Ideal S5000x128 .f32) (x3 : Vec Ideal S256x128 .f32) (r : Fin 5000) (d : Fin 128) :
    k1_pay1 (F := Ideal) x0 x1 x2 x3 (ix2 r d) = ∑ k : Fin 256, blockJoined x0 x1 x2 r k * x3 (ix2 k d) := by
  unfold k1_pay1
  refine (Cert.LibPlainMatmul.matmul_zero_ix2 dot_S5000x256_S256x128_S5000x128_1_0_0_1_n_n none rfl rfl
    lhs_row lhs_col rhs_row rhs_col _ _ r d).trans ?_
  refine Finset.sum_congr rfl fun k _ => ?_
  refine congrArg (· * x3 (ix2 k d)) ?_
  refine (concat_cols_apply _ _ r k).trans ?_
  rw [shapeCast_self x0, shapeCast_self x1]
  rfl

/-! ## From blocks to the array -/

section Array

-- the buffer contents when the kernel is entered: a parameter throughout
variable (V : (c : Dev nD) → (b : Ref sig .tc) → Buf (Elt Ideal) ((c : Thread nD τ).loc b))

theorem hz : (![0, 0] : Fin 2 → Nat) = fun _ => 0 := funext fun a => by fin_cases a <;> rfl

/-- The four arrays the kernel finds, as functions of an index into the extended reals: the segment sums S, -/
abbrev segSums (c : Dev nD) : S50000x128.Idx → EReal := V c (Pipeline.arrRef spec1 0)
/-- the inverse counts C (one value per row, repeated along the columns), -/
abbrev invCounts (c : Dev nD) : S50000x128.Idx → EReal := V c (Pipeline.arrRef spec1 1)
/-- the node features X, -/
abbrev nodeFeats (c : Dev nD) : S50000x128.Idx → EReal := V c (Pipeline.arrRef spec1 2)
/-- and the matrix W. -/
abbrev weights (c : Dev nD) : S256x128.Idx → EReal := V c (Pipeline.arrRef spec1 3)

/-- What the result array ends holding: the projection by W of the joined matrix [S · C | X], S · C the entrywise
    product of the first two arrays. -/
abbrev projected (c : Dev nD) : S50000x128.Idx → EReal :=
  Cert.SegmentMean.project (fun i => segSums V c i * invCounts V c i) (nodeFeats V c) (weights V c)

/-- The printed index maps, decided once over the ten grid points: at point `t` the three row-blocked inputs and the
    output are at block (t, 0), the matrix W at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block `t` of the first array at (y₀, y₁) is the array at (5000 t + y₀, y₁): a block's coordinate is the block
    index times the block size plus the coordinate inside the block. -/
theorem sums_block_apply (c : Dev nD) (t : Fin cfg1.N) (y : S5000x128.Idx) (i : S50000x128.Idx)
    (h0 : (i 0).val = 5000 * t.val + (y 0).val) (h1 : (i 1).val = (y 1).val) :
    (Gen.iblk1 (F := Ideal) V c 0 t : Vec Ideal S5000x128 .f32) y = segSums V c i := by
  obtain ⟨e0, e1, -⟩ := index_facts t
  unfold Gen.iblk1
  rw [View.read_apply]
  refine congrArg (segSums V c) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- The same for the second array (the inverse counts), -/
theorem invc_block_apply (c : Dev nD) (t : Fin cfg1.N) (y : S5000x128.Idx) (i : S50000x128.Idx)
    (h0 : (i 0).val = 5000 * t.val + (y 0).val) (h1 : (i 1).val = (y 1).val) :
    (Gen.iblk1 (F := Ideal) V c 1 t : Vec Ideal S5000x128 .f32) y = invCounts V c i := by
  obtain ⟨-, -, e0, e1, -⟩ := index_facts t
  unfold Gen.iblk1
  rw [View.read_apply]
  refine congrArg (invCounts V c) (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- and for the third (the node features). -/
theorem feats_block_apply (c : Dev nD) (t : Fin cfg1.N) (y : S5000x128.Idx) (i : S50000x128.Idx)
    (h0 : (i 0).val = 5000 * t.val + (y 0).val) (h1 : (i 1).val = (y 1).val) :
    (Gen.iblk1 (F := Ideal) V c 2 t : Vec Ideal S5000x128 .f32) y = nodeFeats V c i := by
  obtain ⟨-, -, -, -, e0, e1, -⟩ := index_facts t
  unfold Gen.iblk1
  rw [View.read_apply]
  refine congrArg (nodeFeats V c) (funext fun a => Fin.ext ?_)
  match a with
  | ⟨0, _⟩ => show win1_2.index t (0 : Fin 2) * 5000 + 1 * (y 0).val = (i 0).val; omega
  | ⟨1, _⟩ => show win1_2.index t (1 : Fin 2) * 128 + 1 * (y 1).val = (i 1).val; omega

/-- The matrix W is staged whole at every point: its one block at (y₀, y₁) is W at (y₀, y₁). -/
theorem weights_block_apply (c : Dev nD) (t : Fin cfg1.N) (y : S256x128.Idx) (i : S256x128.Idx)
    (h0 : (i 0).val = (y 0).val) (h1 : (i 1).val = (y 1).val) :
    (Gen.iblk1 (F := Ideal) V c 3 t : Vec Ideal S256x128 .f32) y = weights V c i := by
  obtain ⟨-, -, -, -, -, -, e0, e1, -⟩ := index_facts t
  unfold Gen.iblk1
  rw [View.read_apply]
  refine congrArg (weights V c) (funext fun a => Fin.ext ?_)
  match a with
  | ⟨0, _⟩ => show win1_3.index t (0 : Fin 2) * 256 + 1 * (y 0).val = (i 0).val; omega
  | ⟨1, _⟩ => show win1_3.index t (1 : Fin 2) * 128 + 1 * (y 1).val = (i 1).val; omega

/-- Row `r` of block `t`'s joined matrix is row `n = 5000 t + r` of the arrays' joined matrix [S · C | X]. -/
theorem blockJoined_blocks (c : Dev nD) (t : Fin cfg1.N) (r : Fin 5000) (k : Fin 256) (n : Fin 50000)
    (hn : n.val = 5000 * t.val + r.val) :
    blockJoined (Gen.iblk1 (F := Ideal) V c 0 t) (Gen.iblk1 (F := Ideal) V c 1 t) (Gen.iblk1 (F := Ideal) V c 2 t) r k
      = Cert.SegmentMean.joined (fun i => segSums V c i * invCounts V c i) (nodeFeats V c) n k := by
  unfold blockJoined Cert.SegmentMean.joined
  by_cases h : k.val < 128
  · rw [dif_pos h, dif_pos h]
    exact congrArg₂ (fun a b : EReal => a * b) (sums_block_apply V c t (ix2 r ⟨k.val, h⟩) (ix2 n ⟨k.val, h⟩) hn rfl)
      (invc_block_apply V c t (ix2 r ⟨k.val, h⟩) (ix2 n ⟨k.val, h⟩) hn rfl)
  · rw [dif_neg h, dif_neg h]
    exact feats_block_apply V c t (ix2 r ⟨k.val - 128, by omega⟩) (ix2 n ⟨k.val - 128, by omega⟩) hn rfl

/-- ONE ENTRY OF ONE BLOCK: what point `t`'s body leaves at (j₀, j₁) of its output block is the projection at
    (5000 t + j₀, j₁). -/
theorem block_entry (c : Dev nD) (t : Fin cfg1.N) (j : S5000x128.Idx) (i : S50000x128.Idx)
    (h0 : (i 0).val = 5000 * t.val + (j 0).val) (h1 : (i 1).val = (j 1).val) :
    k1_pay1 (F := Ideal) (Gen.iblk1 (F := Ideal) V c 0 t) (Gen.iblk1 (F := Ideal) V c 1 t) (Gen.iblk1 (F := Ideal) V c 2 t)
        (Gen.iblk1 (F := Ideal) V c 3 t) j = projected V c i := by
  obtain ⟨r, d, rfl⟩ : ∃ (r : Fin 5000) (d : Fin 128), j = ix2 r d := ⟨j 0, j 1, eq_ix2 j⟩
  refine (payload_apply _ _ _ _ r d).trans ?_
  refine Finset.sum_congr rfl fun k _ => ?_
  exact congrArg₂ (fun a b : EReal => a * b) (blockJoined_blocks V c t r k (i 0) h0)
    (weights_block_apply V c t (ix2 k d) (ix2 k (i 1)) rfl h1)

/-- WHAT POINT `t` WRITES BACK is block `t` of the projection. -/
theorem flushed_eq (c : Dev nD) (t : Fin cfg1.N) :
    (Gen.dat1 (F := Ideal) V c).flushed 4 t = ((cfg1.win 4).blk t).view.read (Elt Ideal) (projected V c) := by
  show (cfg1.win 4).cut (grid1.coords t) ((Gen.dat1 (F := Ideal) V c).after 4 t) = _
  rw [Gen.after1_4]
  unfold Gen.out1_4
  rw [View.canon_unit_zero hz]
  simp only [View.ld_unit_zero (S := S5000x128) hz, View.ld_unit_zero (S := S256x128) hz]
  obtain ⟨-, -, -, -, -, -, -, -, e0, e1⟩ := index_facts t
  funext j
  refine block_entry V c t j (((cfg1.win 4).blk t).view.emb j) ?_ ?_
  · show win1_4.index t (0 : Fin 2) * 5000 + 1 * (j 0).val = 5000 * t.val + (j 0).val; omega
  · show win1_4.index t (1 : Fin 2) * 128 + 1 * (j 1).val = (j 1).val; omega

/-- An index of the array is in point `t`'s output block iff each coordinate is in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v12).slice (win1_4.rect t)).set ↔ _
  rw [View.set_slice_whole, Rect.mem_set_unit]
  exact Iff.rfl

/-- THE BLOCKS TILE THE ROWS: row `n` is in the block of point `n / 5000`, and every point writes its block back. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e0, e1⟩ := index_facts t
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE RESULT ARRAY after the last point: the projection by W of the joined matrix [S · C | X], S, C, X, W the four
    arrays the kernel finds. -/
theorem final (c : Dev nD) :
    (Gen.dat1 (F := Ideal) V c).arrAt 4 cfg1.N
      = Cert.SegmentMean.project (fun i => segSums V c i * invCounts V c i) (nodeFeats V c) (weights V c) :=
  (Gen.dat1 (F := Ideal) V c).arrAt_eq_of_cover 4 (projected V c) (fun t _ => flushed_eq V c t) covered

end Array

end Cert.KernelIdeal.Finalize

end
-- ==== Proof.KernelRun.lean ====
/-
  The kernel program's run with its result kept, and the arrays each of its two grid kernels finds, read back to
  the program's arguments.

  The program is: one host reshape of the receivers to one row; the first grid kernel (the segment sums); thirteen
  host operations computing the inverse counts 1 / max(count, 1), one per node, repeated along the 128 columns; the
  second grid kernel (the join and the projection). Its buffers' contents at the four boundaries between these
  stretches are a fold from the launch memory. The run ends with the result buffer at the fold's last stage, which
  is what the second grid kernel's write-backs leave; the arrays that kernel finds are the first kernel's output
  array as it left it, the inverse counts as the host operations computed them from the receivers, and two
  arguments as launched.
-/
import proofs.«156975_j29119878266987_1_alg».proof.Proof.Gen.KernelIdeal.Frame
import proofs.«156975_j29119878266987_1_alg».proof.Proof.Gen.ReferenceIdeal.Read
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The run, with the result kept -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- THE RUN: from any memory with zero counters every weakly fair execution of the program on the TensorCores
    terminates, nothing faulting, and every final state has the result buffer at the last stage of the fold of the
    buffers' contents through the program, and the four argument arrays as launched. The launch over the program's
    four segments; the last thread state — every unscoped buffer at the fold's last stage — read against the final
    state; the result buffer is one of those, and each argument's buffer walks back through the fold to the launch
    memory. -/
theorem run_value : θ_run defs (onTc (τ := τ) (main (F := F))) ⟨m, fun _ => 0, ρ⟩ (fun r => ∀ c : Dev nD,
      r.2.mem ((c.tc : Thread nD τ).loc main_v12) = Gen.W4 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The result buffer is the second grid kernel's output array (its window 4), so the fold's last stage has it at
    what that kernel's write-backs leave. -/
theorem result_eq (c : Dev nD) :
    Gen.W4 m ρ c (Proc.devRef .tc main_v12) = (Gen.dat1 (Gen.V3 m ρ) c).arrAt 4 cfg1.N :=
  W4_arr m ρ c 4

end Run

/-! ## What each grid kernel finds -/

section Found

variable {F : FTy → Type} [FloatOps F]
variable (m : (ℓ : Loc nD τ sig) → Buf (Elt F) ℓ) (ρ : Dev nD → PrngReg)

/-! ### The first grid kernel: the edge features as launched, the receivers as one row -/

/-- No host operation before the first grid kernel writes the edge features: it finds them as launched. -/
theorem found_edges (c : Dev nD) :
    Gen.V1 m ρ c (Pipeline.arrRef spec0 0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The receivers reach the first grid kernel reshaped from [800000] to one row [1, 800000]. -/
theorem found_receivers (c : Dev nD) :
    (Gen.V1 m ρ c (Pipeline.arrRef spec0 1) : S1x800000.Idx → Elt F .i32)
      = shapeCast S1x800000 (m ((c : Thread nD τ).loc main_arg2) : S800000.Idx → Elt F .i32) shapeCasts_S800000_S1x800000 := by
  show StableHlo.after hostOps0 (W0 m ρ c) (Proc.devRef .tc main_v0) = _
  after_results
  rfl

/-- Entry (0, e) of that row is the receiver of edge e. -/
theorem found_receivers_apply (c : Dev nD) (e : Fin 800000) :
    (Gen.V1 m ρ c (Pipeline.arrRef spec0 1) : S1x800000.Idx → Elt F .i32) (ix2 (0 : Fin 1) e)
      = (m ((c : Thread nD τ).loc main_arg2) : S800000.Idx → Elt F .i32) (ix1 e) := by
  rw [found_receivers m ρ c]
  exact shapeCast_a_1a_apply _ _ 0 e

/-! ### Through the first grid kernel: the arguments it does not write -/

/-- The receivers' own buffer is as launched when the first grid kernel is left (the reshape wrote another buffer,
    and the kernel's windows are over other arrays). -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ### The second grid kernel -/

/-- Its first array is the first grid kernel's output array as that kernel left it: none of the host operations
    between the two kernels writes it. -/
theorem found_segSums (c : Dev nD) :
    Gen.V3 m ρ c (Pipeline.arrRef spec1 0) = (Gen.dat0 (Gen.V1 m ρ) c).arrAt 2 cfg0.N :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (Gen.dat0 (Gen.V1 m ρ) c).arrAt 2 cfg0.N := W2_arr m ρ c 2

/-- Its third array is the node features as launched. -/
theorem found_nodeFeats (c : Dev nD) :
    Gen.V3 m ρ c (Pipeline.arrRef spec1 2) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- Its fourth array is the matrix W as launched. -/
theorem found_weights (c : Dev nD) :
    Gen.V3 m ρ c (Pipeline.arrRef spec1 3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The per-node maximum of the count and one, as the host operations between the two kernels compute it from the
    receivers x2: ones [800000] scatter-added into zeros [50000] at the receivers (so entry n counts the edges received
    by n), then the maximum with ones. -/
def maxCounts (x2 : (⟨S800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 x2)
      (broadcastInDim S800000 ![] bcast_S_S800000 (constant S_ .f32 0x3F800000#32)))
    (broadcastInDim S50000 ![] bcast_S_S50000 (constant S_ .f32 0x3F800000#32))

/-- It is the reference's own maximum of the counts and one: the same operations in the same order. -/
theorem maxCounts_eq_reference (x2 : (⟨S800000, .i32⟩ : BufTy).Contents (Elt F)) :
    maxCounts (F := F) x2 = Cert.ReferenceIdeal.Read.val_main_v8 (F := F) x2 := rfl

/-- Its second array, the inverse counts: one divided by that maximum, per node, laid out as a column and repeated
    along the 128 columns. -/
theorem found_invCounts (c : Dev nD) :
    (Gen.V3 m ρ c (Pipeline.arrRef spec1 1) : S50000x128.Idx → Elt F .f32)
      = broadcastInDim S50000x128 ![0, 1] bcast_S50000x1_S50000x128_0_1
          (broadcastInDim S50000x1 ![0] bcast_S50000_S50000x1_0
            (Host.divf (broadcastInDim S50000 ![] bcast_S_S50000 (constant S_ .f32 0x3F800000#32))
              (maxCounts (F := F) (m ((c : Thread nD τ).loc main_arg2))))) := by
  unfold maxCounts
  show StableHlo.after hostOps1 (W2 m ρ c) (Proc.devRef .tc main_v11) = _
  after_results
  rw [W2_main_arg2 m ρ c]

end Found

/-! ## The inverse counts at an index -/

section InvCountsAt

variable {F : FTy → Type} [FloatOps F]

/-- One divided by a per-node vector `mx`, laid out as a column and repeated along the 128 columns, read at (n, d):
    one divided by `mx n`, whatever the column d (the two broadcasts read the column vector at row n; the splat of
    the constant reads the constant; the host's quotient is entry by entry). -/
theorem inverse_column_apply (mx : (⟨S50000, .f32⟩ : BufTy).Contents (Elt F)) (i : S50000x128.Idx) :
    broadcastInDim S50000x128 ![0, 1] bcast_S50000x1_S50000x128_0_1
        (broadcastInDim S50000x1 ![0] bcast_S50000_S50000x1_0
          (Host.divf (broadcastInDim S50000 ![] bcast_S_S50000 (constant (F := F) S_ .f32 0x3F800000#32)) mx)) i
      = FloatOps.hostDivf (FloatOps.ofBits .f32 0x3F800000#32 : F .f32) (mx (ix1 (i 0))) := by
  refine (broadcastInDim_apply _ bcast_S50000x1_S50000x128_0_1 _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  refine (broadcastInDim_apply _ bcast_S50000_S50000x1_0 _ (ix2 (i 0) (0 : Fin 1)) (ix1 (i 0)) (fun a => match a with
    | ⟨0, _⟩ => by show (i 0).val = if (50000 : Nat) = 1 then 0 else (i 0).val; rw [if_neg (by decide)])).trans ?_
  show FloatOps.hostDivf (broadcastInDim S50000 ![] bcast_S_S50000 (constant (F := F) S_ .f32 0x3F800000#32) (ix1 (i 0))) (mx (ix1 (i 0))) = _
  rw [broadcastInDim_apply _ bcast_S_S50000 (constant (F := F) S_ .f32 0x3F800000#32) (ix1 (i 0)) ix0 (fun a => a.elim0)]
  rfl

end InvCountsAt

section InvCountsFound

variable {F : FTy → Type} [FloatOps F]
variable (m : (ℓ : Loc nD τ sig) → Buf (Elt F) ℓ) (ρ : Dev nD → PrngReg)

/-- THE INVERSE COUNTS AT AN ENTRY: at (n, d) the second grid kernel's second array holds one divided by the maximum
    of node n's count and one, whatever the column d. -/
theorem found_invCounts_apply (c : Dev nD) (i : S50000x128.Idx) :
    (Gen.V3 m ρ c (Pipeline.arrRef spec1 1) : S50000x128.Idx → Elt F .f32) i
      = FloatOps.hostDivf (FloatOps.ofBits .f32 0x3F800000#32 : F .f32)
          (maxCounts (F := F) (m ((c : Thread nD τ).loc main_arg2)) (ix1 (i 0))) :=
  (congrFun (found_invCounts m ρ c) i).trans (inverse_column_apply _ i)

end InvCountsFound

section InvCountsIdeal

variable (m : (ℓ : Loc nD τ sig) → Buf (Elt Ideal) ℓ) (ρ : Dev nD → PrngReg)

set_option maxHeartbeats 50000 in
/-- On the extended reals the host's quotient is the exact one: at (n, d) the inverse counts are 1 / max(count n, 1). -/
theorem found_invCounts_ideal (c : Dev nD) (i : S50000x128.Idx) :
    (Gen.V3 m ρ c (Pipeline.arrRef spec1 1) : S50000x128.Idx → Elt Ideal .f32) i
      = Ideal.div (Ideal.ofBits .f32 0x3F800000#32)
          (maxCounts (F := Ideal) (m ((c : Thread nD τ).loc main_arg2)) (ix1 (i 0))) :=
  (found_invCounts_apply m ρ c i).trans (Ideal.hostDivf_def ..)

end InvCountsIdeal

end Cert.KernelIdeal.RunValue

end
-- ==== Proof.ReferenceProject.lean ====
/-
  The reference's result as the shared specification, and the per-node mean as a product with the inverse count.

  The reference joins the mean `agg` and the node features along the columns and multiplies by `W`: entry (n, d) of
  its result is the sum over the 256 joined columns k of [agg | nodes](n, k) · W(k, d). The mean divides the
  segment sum by max(count, 1), where the count of a node is a sum of ones over a finite set of edges: a real
  number at least 1, so dividing by it is multiplying by its reciprocal, at the infinities too.
-/
import proofs.«156975_j29119878266987_1_alg».proof.Proof.Gen.ReferenceIdeal.Read
import proofs.«156975_j29119878266987_1_alg».proof.Proof.SegmentMean
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Project

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo
open scoped BigOperators

/-! ## The joined matrix and the projection -/

/-- The reference's concatenation along the columns, read at row `n` and column `k < 256`: the mean at column `k`
    below 128, the node features at column `k - 128` from 128 on. -/
theorem v12_apply (x0 : (⟨S800000x128, .f32⟩ : BufTy).Contents (Elt Ideal)) (x1 : (⟨S50000x128, .f32⟩ : BufTy).Contents (Elt Ideal))
    (x2 : (⟨S800000, .i32⟩ : BufTy).Contents (Elt Ideal)) (n : Fin 50000) (k : Fin 256) :
    Read.val_main_v12 (F := Ideal) x0 x1 x2 (@ix2 50000 256 n k)
      = Cert.SegmentMean.joined (Read.val_main_v11 (F := Ideal) x0 x2) x1 n k := by
  unfold Read.val_main_v12 Cert.SegmentMean.joined
  by_cases h : k.val < 128
  · rw [dif_pos h]
    exact concatenate_pair_apply_left (t := S50000x256) (s₁ := S50000x128) (s₂ := S50000x128) 1
      (Read.val_main_v11 (F := Ideal) x0 x2) x1 concatenates_S50000x128_S50000x128_S50000x256_d1
      (@ix2 50000 256 n k) rfl (@ix2 50000 128 n ⟨k.val, h⟩) (fun b => by
        match b with
        | ⟨0, _⟩ => rfl
        | ⟨1, _⟩ => rfl)
  · rw [dif_neg h]
    exact concatenate_pair_apply_right (t := S50000x256) (s₁ := S50000x128) (s₂ := S50000x128) 1
      (Read.val_main_v11 (F := Ideal) x0 x2) x1 concatenates_S50000x128_S50000x128_S50000x256_d1
      (@ix2 50000 256 n k) rfl rfl (@ix2 50000 128 n ⟨k.val - 128, by omega⟩)
      (fun b hb => by
        match b with
        | ⟨0, _⟩ => rfl
        | ⟨1, _⟩ => exact absurd rfl hb)
      (by show (k.val - 128) + 128 = k.val; omega)

/-- The reference's result is the projection of the joined matrix [mean | nodes] by `W`. -/
theorem ref_project (x0 : (⟨S800000x128, .f32⟩ : BufTy).Contents (Elt Ideal)) (x1 : (⟨S50000x128, .f32⟩ : BufTy).Contents (Elt Ideal))
    (x2 : (⟨S800000, .i32⟩ : BufTy).Contents (Elt Ideal)) (x3 : (⟨S256x128, .f32⟩ : BufTy).Contents (Elt Ideal)) :
    Read.val_main_v13 (F := Ideal) x0 x1 x2 x3
      = Cert.SegmentMean.project (Read.val_main_v11 (F := Ideal) x0 x2) x1 x3 := by
  funext i
  rw [Read.val_main_v13_apply]
  unfold Cert.SegmentMean.project
  refine Finset.sum_congr rfl fun k _ => ?_
  have hl : lidx_main_v13 i k = @ix2 50000 256 (i 0) k := funext fun a => match a with
    | ⟨0, _⟩ => rfl
    | ⟨1, _⟩ => rfl
  have hr : ridx_main_v13 i k = @ix2 256 128 k (i 1) := funext fun a => match a with
    | ⟨0, _⟩ => rfl
    | ⟨1, _⟩ => rfl
  rw [hl, hr]
  exact congrArg (· * x3 (@ix2 256 128 k (i 1))) (v12_apply x0 x1 x2 (i 0) k)

/-! ## The count, and the mean as a product with the inverse count -/

/-- The f32 word `0x3F800000` is the real number one. -/
theorem ofBits_one : Ideal.ofBits .f32 0x3F800000#32 = ((1 : ℝ) : EReal) := by
  simp [Ideal.ofBits, Ideal.ieee, -EReal.coe_mul]; norm_num

/-- A sum of ones over a finite set, in the extended reals, is the real number of its elements. -/
theorem sum_one_coe {ι : Type} (s : Finset ι) : (∑ _j ∈ s, ((1 : ℝ) : EReal)) = ((s.card : ℝ) : EReal) := by
  classical
  induction s using Finset.induction_on with
  | empty => simp
  | insert a s ha ih =>
    rw [Finset.sum_insert ha, ih, Finset.card_insert_of_notMem ha, ← EReal.coe_add]
    congr 1
    push_cast
    ring

/-- At the ideal values the host's accumulating scatter is the exact sum, for any operands. -/
theorem scatterAdd_ideal {s si su : Shape} (d : ScatterDims s si su) {w : Nat} (x : FVec Ideal s .f32) (idx : IVec si w)
    (upd : FVec Ideal su .f32) :
    Host.scatterAdd (F := Ideal) (φ := .f32) d x idx upd = Ideal.hostScatterAdd d x idx upd := rfl

/-- An accumulating scatter of ones into zeros counts: each entry is a natural number. -/
theorem scatterAdd_ones_nat {s si su : Shape} (d : ScatterDims s si su) {w : Nat} (x : s.Idx → EReal) (idx : IVec si w)
    (upd : su.Idx → EReal) (hx : ∀ i, x i = 0) (hu : ∀ j, upd j = ((1 : ℝ) : EReal)) (i : s.Idx) :
    ∃ c : ℕ, Ideal.hostScatterAdd d x idx upd i = ((c : ℝ) : EReal) := by
  unfold Ideal.hostScatterAdd
  rw [hx i, zero_add, Finset.sum_congr rfl (fun j _ => hu j)]
  exact ⟨_, sum_one_coe _⟩

/-- The count of a node — zero plus a one for every edge received — is a natural number. -/
theorem v6_nat (x2 : (⟨S800000, .i32⟩ : BufTy).Contents (Elt Ideal)) (n : S50000.Idx) :
    ∃ c : ℕ, Read.val_main_v6 (F := Ideal) x2 n = ((c : ℝ) : EReal) := by
  have hx : ∀ i, Read.val_main_v4 (F := Ideal) i = 0 := fun i => by
    rw [Read.val_main_v4_apply, Read.val_main_cst_1_apply, Ideal.ofBits_def, Ideal.ofBits_zero_f32]
  have hu : ∀ j, Read.val_main_v3 (F := Ideal) j = ((1 : ℝ) : EReal) := fun j => by
    rw [Read.val_main_v3_apply, Read.val_main_cst_0_apply, Ideal.ofBits_def, ofBits_one]
  unfold Read.val_main_v6
  generalize Read.val_main_v4 (F := Ideal) = y4 at hx ⊢
  generalize Read.val_main_v3 (F := Ideal) = y3 at hu ⊢
  generalize Read.val_main_v5 (F := Ideal) x2 = y5
  rw [scatterAdd_ideal]
  exact scatterAdd_ones_nat _ _ _ _ hx hu n

/-- The divisor max(count, 1) is a real number at least one. -/
theorem v8_real (x2 : (⟨S800000, .i32⟩ : BufTy).Contents (Elt Ideal)) (n : S50000.Idx) :
    ∃ r : ℝ, 1 ≤ r ∧ Read.val_main_v8 (F := Ideal) x2 n = (r : EReal) := by
  obtain ⟨c, hc⟩ := v6_nat x2 n
  rw [Read.val_main_v8_apply, hc, Read.val_main_v7_apply, Read.val_main_cst_2_apply, Ideal.ofBits_def, ofBits_one,
    Ideal.maximumf_def]
  refine ⟨max (c : ℝ) 1, le_max_right _ _, ?_⟩
  rcases le_total (c : ℝ) 1 with h | h
  · rw [max_eq_right h, max_eq_right (EReal.coe_le_coe_iff.2 h)]
  · rw [max_eq_left h, max_eq_left (EReal.coe_le_coe_iff.2 h)]

/-- Multiplying by the reciprocal of the divisor is dividing by it: the divisor is a nonzero real. -/
theorem mean_eq (x2 : (⟨S800000, .i32⟩ : BufTy).Contents (Elt Ideal)) (s : EReal) (n : S50000.Idx) :
    s * Ideal.div (Ideal.ofBits .f32 0x3F800000#32) (Read.val_main_v8 (F := Ideal) x2 n)
      = Ideal.div s (Read.val_main_v8 (F := Ideal) x2 n) := by
  obtain ⟨r, hr, hv⟩ := v8_real x2 n
  have hr0 : r ≠ 0 := by intro h; rw [h] at hr; linarith
  rw [hv, Ideal.div_coe hr0, Ideal.div_coe hr0, ofBits_one, EReal.coe_one, one_mul]

/-- The mean at an entry: the segment sum there divided by the node's divisor. -/
theorem mean_apply (x0 : (⟨S800000x128, .f32⟩ : BufTy).Contents (Elt Ideal)) (x2 : (⟨S800000, .i32⟩ : BufTy).Contents (Elt Ideal))
    (i : S50000x128.Idx) :
    Read.val_main_v11 (F := Ideal) x0 x2 i
      = Ideal.div (Read.val_main_v2 (F := Ideal) x0 x2 i) (Read.val_main_v8 (F := Ideal) x2 (@ix1 50000 (i 0))) := by
  rw [Read.val_main_v11_apply, Read.val_main_v10_apply, Read.val_main_v9_apply, Ideal.hostDivf_def]
  have h : idx_main_v9 (idx_main_v10 i) = @ix1 50000 (i 0) := funext fun a => match a with
    | ⟨0, _⟩ => rfl
  rw [h]

end Cert.ReferenceIdeal.Project

end
-- ==== Proof.ScatterSum.lean ====
/-
  The reference's segment sum read at an index.

  The reference adds the edge rows into a zero array of node rows with a scatter whose start index on the node axis is the
  receiver of the edge, read as a signed integer, and whose window is one whole row. Read at node n and channel d, the
  result is the sum, over the edges e whose receiver is n, of the edge array at (e, d).
-/
import proofs.«156975_j29119878266987_1_alg».proof.Proof.Gen.ReferenceIdeal.Read
import Idealize.ShloMosaic.Lib.ValueIdx
import Idealize.ShloMosaic.PureOps.Ideal.Laws

noncomputable section

namespace Cert.ReferenceIdeal.ScatterSum

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- A 32-bit word read as a signed integer is the natural number n < 50000 exactly when the word is n. -/
theorem toInt_eq_natCast_iff (b : BitVec 32) (n : Nat) (hn : n < 50000) :
    b.toInt = (n : Int) ↔ b = BitVec.ofNat 32 n := by
  have hb : b.toNat < 4294967296 := b.isLt
  constructor
  · intro h
    apply BitVec.eq_of_toNat_eq
    rw [BitVec.toNat_ofNat, Nat.mod_eq_of_lt (by omega)]
    rw [BitVec.toInt_eq_toNat_cond] at h
    split at h <;> omega
  · rintro rfl
    rw [BitVec.toInt_eq_toNat_cond, BitVec.toNat_ofNat, Nat.mod_eq_of_lt (by omega)]
    rw [if_pos (by omega)]

section General
variable {s si u : Shape} (d : ScatterDims s si u)

/-- An update lands on the operand index i exactly when, on every axis, its start plus its window coordinate is i's
    coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro hi
      funext a
      refine Fin.ext ?_
      have := hi a
      show (d.start j idx a + (d.window j a : Int)).toNat = (i a).val
      omega
  · rename_i h
    constructor
    · intro h'; exact absurd h' (by simp)
    · intro hi
      exact absurd (fun a => by have := hi a; have := (i a).isLt; omega) h

end General

section AtTheScatter

/-- On the node axis the start is the index word of the edge, read signed. -/
theorem start_zero (e : Fin 800000) (d' : Fin 128) (idx : IVec S800000x1 32) :
    scatter_S50000x128_S800000x1_S800000x128_1_0_0_1.start (ix2 e d') idx 0 = (idx (ix2 e (0 : Fin 1))).toInt := by
  unfold ScatterDims.start
  rw [dif_pos (show (0 : Fin S50000x128.rank) ∈ scatter_S50000x128_S800000x1_S800000x128_1_0_0_1.scatterDimsToOperandDims from List.mem_singleton.mpr rfl)]
  have hsi : scatter_S50000x128_S800000x1_S800000x128_1_0_0_1.siIdx (ix2 e d') ⟨List.idxOf (0 : Fin S50000x128.rank) scatter_S50000x128_S800000x1_S800000x128_1_0_0_1.scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the channel axis the start is zero: the index names no start there. -/
theorem start_one (e : Fin 800000) (d' : Fin 128) (idx : IVec S800000x1 32) :
    scatter_S50000x128_S800000x1_S800000x128_1_0_0_1.start (ix2 e d') idx 1 = 0 := by
  unfold ScatterDims.start
  rw [dif_neg (show ¬ (1 : Fin S50000x128.rank) ∈ scatter_S50000x128_S800000x1_S800000x128_1_0_0_1.scatterDimsToOperandDims by decide)]

/-- On the node axis the window has one element. -/
theorem window_zero (e : Fin 800000) (d' : Fin 128) : scatter_S50000x128_S800000x1_S800000x128_1_0_0_1.window (ix2 e d') 0 = 0 := by
  unfold ScatterDims.window
  rw [dif_neg (show ¬ (0 : Fin S50000x128.rank) ∈ scatter_S50000x128_S800000x1_S800000x128_1_0_0_1.sKept by decide)]

/-- On the channel axis the window coordinate is the update's channel. -/
theorem window_one (e : Fin 800000) (d' : Fin 128) : scatter_S50000x128_S800000x1_S800000x128_1_0_0_1.window (ix2 e d') 1 = d'.val := by
  unfold ScatterDims.window
  rw [dif_pos (show (1 : Fin S50000x128.rank) ∈ scatter_S50000x128_S800000x1_S800000x128_1_0_0_1.sKept by decide)]
  rfl

/-- The update at edge e and channel d' lands on node n and channel d exactly when the index word of e, read signed, is
    n and the channels agree. -/
theorem resultIdx?_row (e : Fin 800000) (d' : Fin 128) (idx : IVec S800000x1 32) (n : Fin 50000) (d : Fin 128) :
    scatter_S50000x128_S800000x1_S800000x128_1_0_0_1.resultIdx? (ix2 e d') idx = some (ix2 n d)
      ↔ (idx (ix2 e (0 : Fin 1))).toInt = (n.val : Int) ∧ d' = d := by
  rw [resultIdx?_eq_some_iff]
  constructor
  · intro h
    have h0 := h 0
    have h1 := h 1
    rw [start_zero, window_zero] at h0
    rw [start_one, window_one] at h1
    refine ⟨?_, Fin.ext ?_⟩
    · have : ((ix2 n d : S50000x128.Idx) 0).val = n.val := rfl
      rw [this] at h0
      omega
    · have : ((ix2 n d : S50000x128.Idx) 1).val = d.val := rfl
      rw [this] at h1
      omega
  · rintro ⟨h0, rfl⟩ a
    match a with
    | ⟨0, _⟩ =>
      show scatter_S50000x128_S800000x1_S800000x128_1_0_0_1.start (ix2 e d') idx 0 + (scatter_S50000x128_S800000x1_S800000x128_1_0_0_1.window (ix2 e d') 0 : Int) = (n.val : Int)
      rw [start_zero, window_zero, h0]; omega
    | ⟨1, _⟩ =>
      show scatter_S50000x128_S800000x1_S800000x128_1_0_0_1.start (ix2 e d') idx 1 + (scatter_S50000x128_S800000x1_S800000x128_1_0_0_1.window (ix2 e d') 1 : Int) = (d'.val : Int)
      rw [start_one, window_one]; omega

/-- The receivers, broadcast to one column, read at row e. -/
theorem receivers_apply (x2 : (⟨S800000, .i32⟩ : BufTy).Contents (Elt Ideal)) (e : Fin 800000) :
    Read.val_main_v1 (F := Ideal) x2 (ix2 e (0 : Fin 1)) = x2 (ix1 e) := by
  rw [Read.val_main_v1_apply]
  congr 1
  funext a
  match a with
  | ⟨0, _⟩ => rfl

/-- The scatter's operand is zero everywhere. -/
theorem zeros_apply (i : S50000x128.Idx) : Read.val_main_v0 (F := Ideal) i = 0 := by
  rw [Read.val_main_v0_apply, Read.val_main_cst_apply]
  exact Ideal.ofBits_zero_f32

/-- The row scatter-add at the ideal values, read at (n, d): the operand there plus the sum of the update at (e, d) over the
    rows e whose index word is n. -/
theorem scatterAdd_row_apply (x : FVec Ideal S50000x128 .f32) (idx : IVec S800000x1 32) (upd : FVec Ideal S800000x128 .f32)
    (n : Fin 50000) (d : Fin 128) :
    Host.scatterAdd (F := Ideal) (φ := .f32) scatter_S50000x128_S800000x1_S800000x128_1_0_0_1 x idx upd (ix2 n d)
      = x (ix2 n d) + ∑ e : Fin 800000, if idx (ix2 e (0 : Fin 1)) = BitVec.ofNat 32 n.val then upd (ix2 e d) else 0 := by
  simp only [Host.scatterAdd]
  rw [Ideal.hostScatterAdd_def]
  unfold Ideal.hostScatterAdd
  rw [Finset.sum_filter, sum_idx2]
  refine congrArg (fun t => x (ix2 n d) + t) ?_
  refine Finset.sum_congr rfl fun e _ => ?_
  by_cases hA : idx (ix2 e (0 : Fin 1)) = BitVec.ofNat 32 n.val
  · rw [if_pos hA, Finset.sum_eq_single d]
    · rw [if_pos]
      rw [resultIdx?_row, toInt_eq_natCast_iff _ _ n.isLt]
      exact ⟨hA, rfl⟩
    · intro d' _ hd'
      rw [if_neg]
      rw [resultIdx?_row]
      exact fun h => hd' h.2
    · intro h; exact absurd (Finset.mem_univ d) h
  · rw [if_neg hA]
    refine Finset.sum_eq_zero fun d' _ => ?_
    rw [if_neg]
    rw [resultIdx?_row, toInt_eq_natCast_iff _ _ n.isLt]
    exact fun h => hA h.1

/-- THE SEGMENT SUM READ AT (n, d): the sum of the edge array at (e, d) over the edges e whose receiver is n. -/
theorem segsum_apply (x0 : (⟨S800000x128, .f32⟩ : BufTy).Contents (Elt Ideal)) (x2 : (⟨S800000, .i32⟩ : BufTy).Contents (Elt Ideal))
    (n : Fin 50000) (d : Fin 128) :
    Read.val_main_v2 (F := Ideal) x0 x2 (ix2 n d)
      = ∑ e : Fin 800000, if x2 (ix1 e) = BitVec.ofNat 32 n.val then x0 (ix2 e d) else 0 := by
  have hz : ∀ i, Read.val_main_v0 (F := Ideal) i = 0 := zeros_apply
  have hr : ∀ e : Fin 800000, Read.val_main_v1 (F := Ideal) x2 (ix2 e (0 : Fin 1)) = x2 (ix1 e) := receivers_apply x2
  unfold Read.val_main_v2
  generalize Read.val_main_v0 (F := Ideal) = y0 at hz ⊢
  generalize Read.val_main_v1 (F := Ideal) x2 = y1 at hr ⊢
  rw [scatterAdd_row_apply, hz, zero_add]
  refine Finset.sum_congr rfl fun e _ => ?_
  rw [hr]

end AtTheScatter

end Cert.ReferenceIdeal.ScatterSum

end
-- ==== Proof.Bridge.lean ====
/-
  The two sides meet: the kernel's result is the reference's.

  Both programs end in the projection of the joined matrix `[agg | nodes]` by `W`. The kernel's `agg` is its
  segment sums times the inverse of `max (count, 1)`; the reference's is its segment sums divided by that maximum.
  The maximum is a real number not below one, so the product and the quotient agree; the two programs' segment sums
  are the same sum over the edges received by the node — the kernel's taken block by block through a one-hot
  product, the reference's by a scatter-add that drops an id outside the node range, which the one-hot comparison
  never matches either.
-/
import proofs.«156975_j29119878266987_1_alg».proof.Proof.ScatterArray
import proofs.«156975_j29119878266987_1_alg».proof.Proof.FinalizeBlocks
import proofs.«156975_j29119878266987_1_alg».proof.Proof.KernelRun
import proofs.«156975_j29119878266987_1_alg».proof.Proof.ReferenceProject
import proofs.«156975_j29119878266987_1_alg».proof.Proof.ScatterSum
import Idealize.ShloMosaic.Lib.Pipeline.Value
import Idealize.ShloMosaic.Lib.ValueIdx

set_option maxRecDepth 16384

noncomputable section

namespace Cert.Bridge

open Idealize.ShloMosaic Idealize.ShloMosaic.TcCoe Idealize.ShloMosaic.ValueIdx
open Idealize.SL Idealize.SL.Sem
open Cert.KernelIdeal Cert.KernelIdeal.Gen
open scoped BigOperators

/-- A segment sum at an entry, as one sum over the 800000 edges of the features of those received by the node. -/
theorem segSum_apply (E : S800000x128.Idx → EReal) (R : S1x800000.Idx → BitVec 32)
    (n : Fin 50000) (d : Fin 128) :
    Scatter.segSum E R (ix2 n d)
      = ∑ e : Fin 800000, if R (ix2 (0 : Fin 1) e) = BitVec.ofNat 32 n.val then E (ix2 e d) else 0 := by
  unfold Scatter.segSum
  refine Fintype.sum_equiv (finCongr (by norm_num : 625 * 1280 = 800000)) _ _ fun e => ?_
  unfold Scatter.fam
  show (if BitVec.ofNat 32 n.val = R (ix2 (0 : Fin 1) (finCongr (by norm_num : 625 * 1280 = 800000) e)) then (1 : EReal) else 0)
      * E (ix2 (finCongr (by norm_num : 625 * 1280 = 800000) e) d) = _
  by_cases h : R (ix2 (0 : Fin 1) (finCongr (by norm_num : 625 * 1280 = 800000) e)) = BitVec.ofNat 32 n.val
  · rw [if_pos h.symm, if_pos h, one_mul]
  · rw [if_neg (fun h' => h h'.symm), if_neg h, zero_mul]

section Meet

variable (m : (ℓ : Loc nD τ sig) → Buf (Elt Ideal) ℓ) (ρ : Dev nD → PrngReg) (c : Dev nD)

/-- The four argument arrays as launched, typed as the reference's stages take them. -/
abbrev edges : (⟨Cert.ReferenceIdeal.S800000x128, .f32⟩ : BufTy).Contents (Elt Ideal) := m ((c : Thread nD τ).loc main_arg0)
abbrev nodes : (⟨Cert.ReferenceIdeal.S50000x128, .f32⟩ : BufTy).Contents (Elt Ideal) := m ((c : Thread nD τ).loc main_arg1)
abbrev recv : (⟨Cert.ReferenceIdeal.S800000, .i32⟩ : BufTy).Contents (Elt Ideal) := m ((c : Thread nD τ).loc main_arg2)
abbrev wts : (⟨Cert.ReferenceIdeal.S256x128, .f32⟩ : BufTy).Contents (Elt Ideal) := m ((c : Thread nD τ).loc main_arg3)

/-- The segment sums the second pallas_call finds are what the first left: the segment sums of the arrays IT found. -/
theorem seg_fun : Finalize.segSums (V3 m ρ) c = Scatter.segSum (Scatter.edgesArr (V1 m ρ) c) (Scatter.recvRow (V1 m ρ) c) :=
  (RunValue.found_segSums m ρ c).trans (Scatter.final_seg (V1 m ρ) c)

/-- They are the reference's scatter-add of the edges. -/
theorem seg_found (n : Fin 50000) (d : Fin 128) :
    Finalize.segSums (V3 m ρ) c (ix2 n d)
      = Cert.ReferenceIdeal.Read.val_main_v2 (F := Ideal) (edges m c) (recv m c) (ix2 n d) := by
  rw [seg_fun m ρ c, segSum_apply, Cert.ReferenceIdeal.ScatterSum.segsum_apply]
  refine Finset.sum_congr rfl fun e _ => ?_
  rw [show Scatter.recvRow (V1 m ρ) c (ix2 (0 : Fin 1) e) = recv m c (ix1 e) from RunValue.found_receivers_apply m ρ c e,
    show Scatter.edgesArr (V1 m ρ) c = edges m c from RunValue.found_edges m ρ c]

/-- The inverse counts it finds, at an entry: one over the reference's `max (count, 1)` of the node — the host
    operations between the two pallas_calls are the reference's own, in the same order. -/
theorem inv_found (n : Fin 50000) (d : Fin 128) :
    Finalize.invCounts (V3 m ρ) c (ix2 n d)
      = Ideal.div (Ideal.ofBits .f32 0x3F800000#32) (Cert.ReferenceIdeal.Read.val_main_v8 (F := Ideal) (recv m c) (ix1 n)) :=
  (RunValue.found_invCounts_ideal m ρ c (ix2 n d)).trans
    (congrArg (Ideal.div (Ideal.ofBits .f32 0x3F800000#32))
      (congrFun (RunValue.maxCounts_eq_reference (F := Ideal) (m ((c : Thread nD τ).loc main_arg2))) (ix1 n)))

/-- The kernel's result buffer ends holding the reference's result of the same arguments. -/
theorem kernel_result :
    Gen.W4 m ρ c (Proc.devRef .tc main_v12)
      = Cert.ReferenceIdeal.Read.val_main_v13 (F := Ideal) (edges m c) (nodes m c) (recv m c) (wts m c) := by
  rw [RunValue.result_eq m ρ c, Finalize.final (V3 m ρ) c, Cert.ReferenceIdeal.Project.ref_project]
  have hagg : (fun i => Finalize.segSums (V3 m ρ) c i * Finalize.invCounts (V3 m ρ) c i)
      = Cert.ReferenceIdeal.Read.val_main_v11 (F := Ideal) (edges m c) (recv m c) := by
    funext i
    obtain ⟨n, d, rfl⟩ : ∃ (n : Fin 50000) (d : Fin 128), i = ix2 n d := ⟨i 0, i 1, eq_ix2 i⟩
    rw [Cert.ReferenceIdeal.Project.mean_apply, seg_found, inv_found]
    exact Cert.ReferenceIdeal.Project.mean_eq _ _ _
  rw [hagg, show Finalize.nodeFeats (V3 m ρ) c = nodes m c from RunValue.found_nodeFeats m ρ c,
    show Finalize.weights (V3 m ρ) c = wts m c from RunValue.found_weights m ρ c]

end Meet

end Cert.Bridge

end
-- ==== Proof.lean ====
/-
  A graph-network node update: per-node mean of the received edge features, joined with the node's own features and
  projected.

  For 800000 edges with features `edges : [800000, 128]` and receiver ids `receivers : [800000]`, 50000 nodes with
  features `nodes : [50000, 128]`, and a matrix `W : [256, 128]`, both programs compute, for node `n` and channel `d`,

      ∑_{k < 256} [agg | nodes] (n, k) · W (k, d),    agg (n, j) = (∑_{e : receivers e = n} edges (e, j)) / max (#{e : receivers e = n}, 1).

  The reference takes the two sums by scatter-adds (an id outside `[0, 50000)` lands nowhere and is dropped), divides,
  concatenates and multiplies. The kernel takes the first sum in a first grid of 625 points, each adding a block of 1280
  edges into all 50000 rows through a one-hot matrix product, 1000 rows per trip of an inner loop (an id outside the
  range equals no row's id, so it is dropped here too); computes `1 / max (count, 1)` on the host with the reference's
  own operations; and in a second grid of 10 points multiplies, concatenates and multiplies by `W`, 5000 rows per point.
  Over the extended reals the two agree entry by entry: a sum taken block by block in order from zero is the sum; a
  one-hot product `∑ e, [n = receivers e] · edges (e, j)` is the sum over the edges received by `n`; and since
  `max (count, 1)` is a real number not below one, multiplying by its reciprocal is dividing by it. No step uses that
  the inputs are finite.

  The three frame claims are the generated frames (the reference's: its generated run, the result dropped); the
  idealization rewrote nothing, so `preserves` is `True`.
-/
import proofs.«156975_j29119878266987_1_alg».proof.Defs
import proofs.«156975_j29119878266987_1_alg».proof.Proof.Gen.Kernel
import proofs.«156975_j29119878266987_1_alg».proof.Proof.Gen.Kernel.Skeleton
import proofs.«156975_j29119878266987_1_alg».proof.Proof.Gen.Kernel.Loops
import proofs.«156975_j29119878266987_1_alg».proof.Proof.Gen.Kernel.Launch
import proofs.«156975_j29119878266987_1_alg».proof.Proof.Gen.Kernel.Points
import proofs.«156975_j29119878266987_1_alg».proof.Proof.Gen.Kernel.Frame
import proofs.«156975_j29119878266987_1_alg».proof.Proof.Gen.KernelIdeal
import proofs.«156975_j29119878266987_1_alg».proof.Proof.Gen.KernelIdeal.Skeleton
import proofs.«156975_j29119878266987_1_alg».proof.Proof.Gen.KernelIdeal.Loops
import proofs.«156975_j29119878266987_1_alg».proof.Proof.Gen.KernelIdeal.Launch
import proofs.«156975_j29119878266987_1_alg».proof.Proof.Gen.KernelIdeal.Points
import proofs.«156975_j29119878266987_1_alg».proof.Proof.Gen.KernelIdeal.Frame
import proofs.«156975_j29119878266987_1_alg».proof.Proof.Gen.ReferenceIdeal
import proofs.«156975_j29119878266987_1_alg».proof.Proof.Gen.Pre_finite_inputs
import proofs.«156975_j29119878266987_1_alg».proof.Proof.Gen.ReferenceIdeal.Read
import proofs.«156975_j29119878266987_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the four arguments both programs run, and both end with the result buffer at the
    reference's composed term of those arguments: the kernel's by the bridge, the reference's by its generated run. -/
theorem algebraic : Cert.algebraic_KernelIdeal_ReferenceIdeal := by
  intro m ρ m' ρ' _ hagree
  refine ⟨fun c => Cert.ReferenceIdeal.Read.val_main_v13 (F := Ideal) (Cert.Bridge.edges m c) (Cert.Bridge.nodes m c)
    (Cert.Bridge.recv m c) (Cert.Bridge.wts m c), ?_, ?_⟩
  · exact (θ_run Cert.KernelIdeal.defs _ _).mono
      (fun r h c => ⟨(h c).1.trans (Cert.Bridge.kernel_result m ρ c), (h c).2⟩)
      (Cert.KernelIdeal.RunValue.run_value m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v13_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
